-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x128 : Shape := ⟨2, ![524288, 128]⟩
abbrev S256x128 : Shape := ⟨2, ![256, 128]⟩
abbrev S4x128x256 : Shape := ⟨3, ![4, 128, 256]⟩
abbrev S_ : Shape := ⟨0, ![]⟩

class Facts : Prop where
  bcast_S_S524288x128 : S_.BroadcastsInDim S524288x128 (![] : Fin 0 → Fin S524288x128.rank)
  reducesTo_S524288x128_S_d0_1 : S524288x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S4x128x256 : S_.BroadcastsInDim S4x128x256 (![] : Fin 0 → Fin S4x128x256.rank)
  reducesTo_S4x128x256_S_d0_1_2 : S4x128x256.ReducesTo [0, 1, 2] S_

variable [Facts]

def fn_part1 {F : FTy → Type} [FloatOps F] (main_v13 : IVec S_ 1) (main_v16 : IVec S4x128x256 1) : IVec S_ 1 :=
  let main_c_5 : IVec S_ 1 := constantI S_ 1 1#1
  let main_v17 : IVec S_ 1 := (fun x v => Host.reduce IntOp.andi x v reducesTo_S4x128x256_S_d0_1_2 h_S_) main_v16 main_c_5
  let main_v18 : IVec S_ 1 := andi main_v13 main_v17
  main_v18

def fn {F : FTy → Type} [FloatOps F] (main_arg0 : FVec F S524288x128 .f32) (main_arg1 : FVec F S256x128 .f32) (main_arg2 : FVec F S256x128 .f32) (main_arg3 : FVec F S4x128x256 .f32) : IVec S_ 1 :=
  let main_v0 : FVec F S524288x128 .f32 := Host.absf main_arg0
  let main_cst : FVec F S_ .f32 := constant S_ .f32 0x7F800000#32
  let main_v1 : FVec F S524288x128 .f32 := broadcastInDim S524288x128 ![] bcast_S_S524288x128 main_cst
  let main_v2 : IVec S524288x128 1 := cmpf .olt main_v0 main_v1
  let main_c : IVec S_ 1 := constantI S_ 1 1#1
  let main_v3 : IVec S_ 1 := (fun x v => Host.reduce IntOp.andi x v reducesTo_S524288x128_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S4x128x256 .f32 := Host.absf main_arg3
  let main_cst_4 : FVec F S_ .f32 := constant S_ .f32 0x7F800000#32
  let main_v15 : FVec F S4x128x256 .f32 := broadcastInDim S4x128x256 ![] bcast_S_S4x128x256 main_cst_4
  let main_v16 : IVec S4x128x256 1 := cmpf .olt main_v14 main_v15
  fn_part1 (F := F) main_v13 main_v16
-- ==== Kernel.lean ====
abbrev S524288x128 : Shape := ⟨2, ![524288, 128]⟩
abbrev S256x128 : Shape := ⟨2, ![256, 128]⟩
abbrev S4x128x256 : Shape := ⟨3, ![4, 128, 256]⟩
abbrev S128x256 : Shape := ⟨2, ![128, 256]⟩
abbrev S1x128x256 : Shape := ⟨3, ![1, 128, 256]⟩
abbrev S128x128 : Shape := ⟨2, ![128, 128]⟩
abbrev S16384x128 : Shape := ⟨2, ![16384, 128]⟩

abbrev nBuf : Space → Nat
  | .hbm => 11
  | .vmem => 5
  | .smem => 0
  | _ => 0

abbrev bufTy : (tb : Table) → Fin (tcTables nBuf tb) → BufTy
  | .hbm, ⟨0, _⟩ => ⟨S524288x128, .f32⟩
  | .hbm, ⟨1, _⟩ => ⟨S256x128, .f32⟩
  | .hbm, ⟨2, _⟩ => ⟨S256x128, .f32⟩
  | .hbm, ⟨3, _⟩ => ⟨S4x128x256, .f32⟩
  | .hbm, ⟨4, _⟩ => ⟨S256x128, .f32⟩
  | .hbm, ⟨5, _⟩ => ⟨S128x256, .f32⟩
  | .hbm, ⟨6, _⟩ => ⟨S1x128x256, .f32⟩
  | .hbm, ⟨7, _⟩ => ⟨S128x256, .f32⟩
  | .hbm, ⟨8, _⟩ => ⟨S256x128, .f32⟩
  | .hbm, ⟨9, _⟩ => ⟨S128x128, .f32⟩
  | .hbm, ⟨10, _⟩ => ⟨S524288x128, .f32⟩
  | .local _ .vmem, ⟨0, _⟩ => ⟨S16384x128, .f32⟩
  | .local _ .vmem, ⟨1, _⟩ => ⟨S16384x128, .f32⟩
  | .local _ .vmem, ⟨2, _⟩ => ⟨S128x128, .f32⟩
  | .local _ .vmem, ⟨3, _⟩ => ⟨S16384x128, .f32⟩
  | .local _ .vmem, ⟨4, _⟩ => ⟨S16384x128, .f32⟩
  | _, _ => ⟨S524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S256x128_S128x256_1_0 : S256x128.Transposes [1, 0] S128x256
  slices_S4x128x256_S1x128x256_0_0_0 : S4x128x256.Slices ![0, 0, 0] S1x128x256
  shapeCasts_S1x128x256_S128x256 : S1x128x256.ShapeCasts S128x256
  transposes_S128x256_S256x128_1_0 : S128x256.Transposes [1, 0] S256x128
  inb_S16384x128_S16384x128_0_0 : ∀ a, (![0, 0] : Fin 2 → Nat) a + S16384x128.size a ≤ S16384x128.size a
  h_S16384x128 : 0 < S16384x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  dot_S128x256_S256x128_S128x128_1_0_0_1_n_n_wf : DotDims.WF S128x256 S256x128 S128x128 [1] [0] [0] [1] [] []
  dot_S16384x128_S128x128_S16384x128_1_0_0_1_n_n_wf : DotDims.WF S16384x128 S128x128 S16384x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S524288x128.size a
  hwx0_0 : ∀ i : grid0.Coords, EltTy.bits .f32 = 32 ∨ (Rect.block (s := S524288x128) S16384x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384x128.size a ≤ S524288x128.size a
  hwx0_2 : ∀ i : grid0.Coords, EltTy.bits .f32 = 32 ∨ (Rect.block (s := S524288x128) S16384x128.size (cc0_transform_2 i) (hinb0_2 i)).WholeWords (EltTy.packing .f32)

variable [Facts₀]

def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf

abbrev win0_0 : Pipeline.Window sig grid0 :=
  Pipeline.Window.ofSpec (Memref.whole main_arg0) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S16384x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S524288x128 : Shape := ⟨2, ![524288, 128]⟩
abbrev S256x128 : Shape := ⟨2, ![256, 128]⟩
abbrev S4x128x256 : Shape := ⟨3, ![4, 128, 256]⟩
abbrev S128x256 : Shape := ⟨2, ![128, 256]⟩
abbrev S524288x256 : Shape := ⟨2, ![524288, 256]⟩
abbrev S1x128x256 : Shape := ⟨3, ![1, 128, 256]⟩
abbrev S0x256 : Shape := ⟨2, ![0, 256]⟩
abbrev S0x128 : Shape := ⟨2, ![0, 128]⟩

abbrev nBuf : Space → Nat
  | .hbm => 29
  | .vmem => 0
  | .smem => 0
  | _ => 0

abbrev bufTy : (tb : Table) → Fin (tcTables nBuf tb) → BufTy
  | .hbm, ⟨0, _⟩ => ⟨S524288x128, .f32⟩
  | .hbm, ⟨1, _⟩ => ⟨S256x128, .f32⟩
  | .hbm, ⟨2, _⟩ => ⟨S256x128, .f32⟩
  | .hbm, ⟨3, _⟩ => ⟨S4x128x256, .f32⟩
  | .hbm, ⟨4, _⟩ => ⟨S128x256, .f32⟩
  | .hbm, ⟨5, _⟩ => ⟨S524288x256, .f32⟩
  | .hbm, ⟨6, _⟩ => ⟨S128x256, .f32⟩
  | .hbm, ⟨7, _⟩ => ⟨S524288x256, .f32⟩
  | .hbm, ⟨8, _⟩ => ⟨S524288x256, .f32⟩
  | .hbm, ⟨9, _⟩ => ⟨S1x128x256, .f32⟩
  | .hbm, ⟨10, _⟩ => ⟨S128x256, .f32⟩
  | .hbm, ⟨11, _⟩ => ⟨S256x128, .f32⟩
  | .hbm, ⟨12, _⟩ => ⟨S524288x128, .f32⟩
  | .hbm, ⟨13, _⟩ => ⟨S0x256, .f32⟩
  | .hbm, ⟨14, _⟩ => ⟨S1x128x256, .f32⟩
  | .hbm, ⟨15, _⟩ => ⟨S128x256, .f32⟩
  | .hbm, ⟨16, _⟩ => ⟨S256x128, .f32⟩
  | .hbm, ⟨17, _⟩ => ⟨S0x128, .f32⟩
  | .hbm, ⟨18, _⟩ => ⟨S0x256, .f32⟩
  | .hbm, ⟨19, _⟩ => ⟨S1x128x256, .f32⟩
  | .hbm, ⟨20, _⟩ => ⟨S128x256, .f32⟩
  | .hbm, ⟨21, _⟩ => ⟨S256x128, .f32⟩
  | .hbm, ⟨22, _⟩ => ⟨S0x128, .f32⟩
  | .hbm, ⟨23, _⟩ => ⟨S0x256, .f32⟩
  | .hbm, ⟨24, _⟩ => ⟨S1x128x256, .f32⟩
  | .hbm, ⟨25, _⟩ => ⟨S128x256, .f32⟩
  | .hbm, ⟨26, _⟩ => ⟨S256x128, .f32⟩
  | .hbm, ⟨27, _⟩ => ⟨S0x128, .f32⟩
  | .hbm, ⟨28, _⟩ => ⟨S524288x128, .f32⟩
  | _, _ => ⟨S524288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩

abbrev nD : Nat := 1
abbrev τ : Topo := Topo.v7x

variable {F : FTy → Type} [FloatOps F]

class Facts₀ : Prop where
  transposes_S256x128_S128x256_1_0 : S256x128.Transposes [1, 0] S128x256
  slices_S4x128x256_S1x128x256_0_0_0 : S4x128x256.Slices ![0, 0, 0] S1x128x256
  shapeCasts_S1x128x256_S128x256 : S1x128x256.ShapeCasts S128x256
  transposes_S128x256_S256x128_1_0 : S128x256.Transposes [1, 0] S256x128
  slices_S524288x256_S0x256_524288_0 : S524288x256.Slices ![524288, 0] S0x256
  slices_S4x128x256_S1x128x256_1_0_0 : S4x128x256.Slices ![1, 0, 0] S1x128x256
  slices_S4x128x256_S1x128x256_2_0_0 : S4x128x256.Slices ![2, 0, 0] S1x128x256
  slices_S4x128x256_S1x128x256_3_0_0 : S4x128x256.Slices ![3, 0, 0] S1x128x256
  concatenates_S524288x128_S0x128_S0x128_S0x128_S524288x128_d0 : Shape.Concatenates [S524288x128, S0x128, S0x128, S0x128] S524288x128 0
  dot_S524288x128_S128x256_S524288x256_1_0_0_1_n_n_wf : DotDims.WF S524288x128 S128x256 S524288x256 [1] [0] [0] [1] [] []
  dot_S524288x256_S256x128_S524288x128_1_0_0_1_n_n_wf : DotDims.WF S524288x256 S256x128 S524288x128 [1] [0] [0] [1] [] []
  dot_S0x256_S256x128_S0x128_1_0_0_1_n_n_wf : DotDims.WF S0x256 S256x128 S0x128 [1] [0] [0] [1] [] []

variable [Facts₀]

def dot_S524288x128_S128x256_S524288x256_1_0_0_1_n_n : DotDims S524288x128 S128x256 S524288x256 where
  lhsContracting := [1]
  rhsContracting := [0]
  lhsNonContracting := [0]
  rhsNonContracting := [1]
  lhsBatch := []
  rhsBatch := []
  wf := dot_S524288x128_S128x256_S524288x256_1_0_0_1_n_n_wf
def dot_S524288x256_S256x128_S524288x128_1_0_0_1_n_n : DotDims S524288x256 S256x128 S524288x128 where
  lhsContracting := [1]
  rhsContracting := [0]
  lhsNonContracting := [0]
  rhsNonContracting := [1]
  lhsBatch := []
  rhsBatch := []
  wf := dot_S524288x256_S256x128_S524288x128_1_0_0_1_n_n_wf
def dot_S0x256_S256x128_S0x128_1_0_0_1_n_n : DotDims S0x256 S256x128 S0x128 where
  lhsContracting := [1]
  rhsContracting := [0]
  lhsNonContracting := [0]
  rhsNonContracting := [1]
  lhsBatch := []
  rhsBatch := []
  wf := dot_S0x256_S256x128_S0x128_1_0_0_1_n_n_wf

class Facts : Prop extends Facts₀ where

variable [Facts]
-- ==== Proof.LibDenseEdges.lean ====
/-
  A dense matrix assembled from an edge list, applied to a column, against the edgewise sum.

  Edges e carry a weight a_e, a target r_e and a source c_e.  The dense matrix has entry
  (n, k) = ∑ of a_e over the edges with r_e = n and c_e = k  (parallel edges add up).  Applying it to a
  column t gives, at row n,  ∑_k L(n, k) · t_k.  The edgewise form aggregates at the target directly:
  ∑ of a_e · t_{c_e} over the edges with r_e = n.  The two agree because a product distributes over a finite
  sum — which on the extended reals needs every weight and every entry of the column to be a real number:
  with a weight +∞ beside a weight −∞ on parallel edges, or an infinite entry of t against weights that cancel,
  the two sides differ.  So the identity is stated for real-valued data, and the closure lemmas below are what
  carries "every entry is a real number" through sums, products, negation and maxima.
-/
import Idealize.ShloMosaic.PureOps.Ideal.Laws

noncomputable section

open scoped BigOperators

namespace Cert.DenseEdges

/-! ## Extended reals that are real numbers -/

/-- An extended real that is a real number (neither infinity). -/
def IsReal (x : EReal) : Prop := ∃ r : ℝ, x = (r : EReal)

theorem isReal_of_ne {x : EReal} (hb : x ≠ ⊥) (ht : x ≠ ⊤) : IsReal x :=
  ⟨x.toReal, (EReal.coe_toReal ht hb).symm⟩

theorem IsReal.ne_bot {x : EReal} (h : IsReal x) : x ≠ ⊥ := by
  obtain ⟨r, rfl⟩ := h; exact EReal.coe_ne_bot r

theorem IsReal.ne_top {x : EReal} (h : IsReal x) : x ≠ ⊤ := by
  obtain ⟨r, rfl⟩ := h; exact EReal.coe_ne_top r

theorem isReal_zero : IsReal 0 := ⟨0, EReal.coe_zero.symm⟩

theorem IsReal.add {x y : EReal} (hx : IsReal x) (hy : IsReal y) : IsReal (x + y) := by
  obtain ⟨r, rfl⟩ := hx; obtain ⟨s, rfl⟩ := hy; exact ⟨r + s, (EReal.coe_add r s).symm⟩

theorem IsReal.mul {x y : EReal} (hx : IsReal x) (hy : IsReal y) : IsReal (x * y) := by
  obtain ⟨r, rfl⟩ := hx; obtain ⟨s, rfl⟩ := hy; exact ⟨r * s, (EReal.coe_mul r s).symm⟩

theorem IsReal.neg {x : EReal} (hx : IsReal x) : IsReal (-x) := by
  obtain ⟨r, rfl⟩ := hx; exact ⟨-r, (EReal.coe_neg r).symm⟩

theorem IsReal.sub {x y : EReal} (hx : IsReal x) (hy : IsReal y) : IsReal (x - y) := by
  obtain ⟨r, rfl⟩ := hx; obtain ⟨s, rfl⟩ := hy; exact ⟨r - s, (EReal.coe_sub r s).symm⟩

theorem IsReal.max {x y : EReal} (hx : IsReal x) (hy : IsReal y) : IsReal (max x y) := by
  rcases le_total x y with h | h
  · rw [max_eq_right h]; exact hy
  · rw [max_eq_left h]; exact hx

/-- The coercion of a finite sum of reals is the sum of the coercions. -/
theorem coe_sum {ι : Type*} (s : Finset ι) (f : ι → ℝ) :
    ((∑ i ∈ s, f i : ℝ) : EReal) = ∑ i ∈ s, (f i : EReal) := by
  classical
  refine Finset.induction_on s ?_ ?_
  · simp
  · intro i s hi ih
    rw [Finset.sum_insert hi, Finset.sum_insert hi, EReal.coe_add, ih]

/-- A finite sum of real numbers is a real number. -/
theorem isReal_sum {ι : Type*} (s : Finset ι) (f : ι → EReal) (h : ∀ i ∈ s, IsReal (f i)) :
    IsReal (∑ i ∈ s, f i) := by
  classical
  refine Finset.induction_on s (fun _ => ?_) (fun i s hi ih h => ?_) h
  · rw [Finset.sum_empty]; exact isReal_zero
  · rw [Finset.sum_insert hi]
    exact (h i (Finset.mem_insert_self i s)).add (ih fun j hj => h j (Finset.mem_insert_of_mem hj))

/-! ## The dense form against the edgewise form -/

/-- Over the reals: summing the dense matrix's row n against the column is summing, over the edges into n, the
    weight times the column's entry at the edge's source. -/
theorem real_dense_eq_edges {E N : Type*} [Fintype E] [Fintype N] [DecidableEq N]
    (r c : E → N) (a : E → ℝ) (t : N → ℝ) (n : N) :
    ∑ k, (∑ e ∈ Finset.univ.filter (fun e => r e = n ∧ c e = k), a e) * t k
      = ∑ e ∈ Finset.univ.filter (fun e => r e = n), a e * t (c e) := by
  simp only [Finset.sum_mul, Finset.sum_filter]
  rw [Finset.sum_comm]
  refine Finset.sum_congr rfl fun e _ => ?_
  by_cases h : r e = n
  · simp only [h, true_and, if_true, ite_mul, zero_mul]
    rw [Finset.sum_ite_eq Finset.univ (c e) (fun k => a e * t k)]
    simp
  · simp only [h, false_and, if_false, zero_mul, Finset.sum_const_zero]

/-- THE IDENTITY over the extended reals, for real-valued weights and a real-valued column: row n of the dense
    matrix (each entry the zero it was initialised with plus its parallel edges' weights) against the column
    equals the zero plus the edgewise sum at the target n. -/
theorem dense_eq_edges {E N : Type*} [Fintype E] [Fintype N] [DecidableEq N]
    (r c : E → N) (a : E → EReal) (t : N → EReal)
    (ha : ∀ e, IsReal (a e)) (ht : ∀ k, IsReal (t k)) (n : N) :
    ∑ k, ((0 : EReal) + ∑ e ∈ Finset.univ.filter (fun e => r e = n ∧ c e = k), a e) * t k
      = (0 : EReal) + ∑ e ∈ Finset.univ.filter (fun e => r e = n), a e * t (c e) := by
  choose a' ha' using ha
  choose t' ht' using ht
  simp only [ha', ht', zero_add, ← coe_sum, ← EReal.coe_mul]
  exact congrArg _ (real_dense_eq_edges r c a' t' n)

/-- The dense product's entries are real numbers when the weights and the column are. -/
theorem isReal_dense {E N : Type*} [Fintype E] [Fintype N] [DecidableEq N]
    (r c : E → N) (a : E → EReal) (t : N → EReal)
    (ha : ∀ e, IsReal (a e)) (ht : ∀ k, IsReal (t k)) (n : N) :
    IsReal (∑ k, ((0 : EReal) + ∑ e ∈ Finset.univ.filter (fun e => r e = n ∧ c e = k), a e) * t k) :=
  isReal_sum _ _ fun k _ => (isReal_zero.add (isReal_sum _ _ fun e _ => ha e)).mul (ht k)

end Cert.DenseEdges

end
-- ==== Proof.LibSharedFactor.lean ====
/-
  Two projections of one row, added and projected again, against one collected weight matrix.

  A row x (entries x k) is sent through two matrices a and b (entries a j k, b j k), the two images are added
  entry by entry, and the sum is paired with a row e (entries e j):

      ∑ j, ((∑ k, x k · a j k) + (∑ k, x k · b j k)) · e j.

  Collecting the weights before the row is touched gives

      ∑ k, x k · (∑ j, (a j k + b j k) · e j).

  The two agree: multiply out, and exchange the two finite sums.  On the extended reals a product does not
  distribute over a sum at the infinities (x k = +∞ against a j k = 1 and b j k = −1 gives +∞ − ∞ on one side and
  +∞ · 0 on the other), so the identity is stated for data that are real numbers.
-/
import proofs.«136582_j19825569038989_1_alg».proof.Proof.LibDenseEdges

noncomputable section

open scoped BigOperators

namespace Cert.SharedFactor

open Cert.DenseEdges

/-- Over the reals: adding two images of a row and pairing the sum with `e` is pairing the row with the collected
    weights `∑ j, (a j k + b j k) · e j`. -/
theorem real_collect {K J : Type*} [Fintype K] [Fintype J] (x : K → ℝ) (a b : J → K → ℝ) (e : J → ℝ) :
    ∑ j, ((∑ k, x k * a j k) + (∑ k, x k * b j k)) * e j = ∑ k, x k * ∑ j, (a j k + b j k) * e j := by
  simp only [Finset.mul_sum, Finset.sum_mul, ← Finset.sum_add_distrib]
  rw [Finset.sum_comm]
  refine Finset.sum_congr rfl fun k _ => Finset.sum_congr rfl fun j _ => ?_
  ring

/-- The same identity on the extended reals, for real-valued rows and matrices. -/
theorem collect {K J : Type*} [Fintype K] [Fintype J] (x : K → EReal) (a b : J → K → EReal) (e : J → EReal)
    (hx : ∀ k, IsReal (x k)) (ha : ∀ j k, IsReal (a j k)) (hb : ∀ j k, IsReal (b j k)) (he : ∀ j, IsReal (e j)) :
    ∑ j, ((∑ k, x k * a j k) + (∑ k, x k * b j k)) * e j = ∑ k, x k * ∑ j, (a j k + b j k) * e j := by
  choose x' hx' using hx
  choose a' ha' using ha
  choose b' hb' using hb
  choose e' he' using he
  simp only [hx', ha', hb', he', ← EReal.coe_mul, ← EReal.coe_add, ← coe_sum]
  exact congrArg (fun r : ℝ => (r : EReal)) (real_collect x' a' b' e')

end Cert.SharedFactor

end
-- ==== Proof.StaticRouting.lean ====
/-
  The mathematics of a grouped projection whose routing sends every token to the first expert.

  Inputs: tokens x [524288, 128], two projection matrices wp, wu [256, 128] and the experts' weights we [4, 128, 256].

  Routed form.  Each token row is projected twice and the images are added,
      hidden[r, j] = (∑ k, x[r, k] · wp[j, k]) + (∑ k, x[r, k] · wu[j, k]),
  and since all rows belong to the first group the result is
      routed[r, q] = ∑ j, hidden[r, j] · we[0, q, j].

  Collapsed form.  The weights are collected first,
      mixed[k, q] = ∑ j, (wp[j, k] + wu[j, k]) · we[0, q, j],
  and the tokens meet them once,
      collapsed[r, q] = ∑ k, x[r, k] · mixed[k, q].

  For real-valued inputs the two forms are the same array (the identity of LibSharedFactor, row by row).
-/
import proofs.«136582_j19825569038989_1_alg».proof.Proof.LibSharedFactor
import Idealize.ShloMosaic.PureOps.Ideal
import Idealize.ShloMosaic.Lib.ValueIdx

noncomputable section

open scoped BigOperators

namespace Cert.StaticRouting

open Idealize.ShloMosaic Idealize.ShloMosaic.ValueIdx Cert.DenseEdges

/-- The shapes of the four inputs and of the collected weights. -/
abbrev Tokens : Shape := ⟨2, ![524288, 128]⟩
abbrev Proj : Shape := ⟨2, ![256, 128]⟩
abbrev Experts : Shape := ⟨3, ![4, 128, 256]⟩
abbrev Mixed : Shape := ⟨2, ![128, 128]⟩

/-- Entry `(k, q)` of the collected weights: `∑ j, (wp[j, k] + wu[j, k]) · we[0, q, j]`. -/
def mixedAt (wp wu : Proj.Idx → EReal) (we : Experts.Idx → EReal) (k q : Fin 128) : EReal :=
  ∑ j : Fin 256, (wp (ix2 j k) + wu (ix2 j k)) * we (ix3 (0 : Fin 4) q j)

/-- The collected weights as an array. -/
def mixed (wp wu : Proj.Idx → EReal) (we : Experts.Idx → EReal) : Mixed.Idx → EReal :=
  fun i => mixedAt wp wu we (i 0) (i 1)

/-- Entry `(r, q)` of the tokens times a `[128, 128]` matrix. -/
def collapsedAt (x : Tokens.Idx → EReal) (M : Mixed.Idx → EReal) (r : Fin 524288) (q : Fin 128) : EReal :=
  ∑ k : Fin 128, x (ix2 r k) * M (ix2 k q)

/-- The tokens times a `[128, 128]` matrix, as an array. -/
def collapsed (x : Tokens.Idx → EReal) (M : Mixed.Idx → EReal) : Tokens.Idx → EReal :=
  fun i => collapsedAt x M (i 0) (i 1)

/-- Entry `(r, j)` of the hidden layer: the two projections of row `r`, added. -/
def hiddenAt (x : Tokens.Idx → EReal) (wp wu : Proj.Idx → EReal) (r : Fin 524288) (j : Fin 256) : EReal :=
  (∑ k : Fin 128, x (ix2 r k) * wp (ix2 j k)) + (∑ k : Fin 128, x (ix2 r k) * wu (ix2 j k))

/-- Entry `(r, q)` of the routed result: the hidden row `r` against the first expert's row `q`. -/
def routedAt (x : Tokens.Idx → EReal) (wp wu : Proj.Idx → EReal) (we : Experts.Idx → EReal) (r : Fin 524288) (q : Fin 128) : EReal :=
  ∑ j : Fin 256, hiddenAt x wp wu r j * we (ix3 (0 : Fin 4) q j)

/-- The routed result as an array. -/
def routed (x : Tokens.Idx → EReal) (wp wu : Proj.Idx → EReal) (we : Experts.Idx → EReal) : Tokens.Idx → EReal :=
  fun i => routedAt x wp wu we (i 0) (i 1)

/-- For real-valued inputs the collapsed form is the routed form, entry by entry. -/
theorem collapsed_mixed_eq_routed (x : Tokens.Idx → EReal) (wp wu : Proj.Idx → EReal) (we : Experts.Idx → EReal)
    (hx : ∀ i, IsReal (x i)) (hp : ∀ i, IsReal (wp i)) (hu : ∀ i, IsReal (wu i)) (he : ∀ i, IsReal (we i)) :
    collapsed x (mixed wp wu we) = routed x wp wu we := by
  funext i
  obtain ⟨r, q, rfl⟩ : ∃ (r : Fin 524288) (q : Fin 128), i = ix2 r q := ⟨i 0, i 1, eq_ix2 i⟩
  show ∑ k : Fin 128, x (ix2 r k) * mixedAt wp wu we k q = ∑ j : Fin 256, hiddenAt x wp wu r j * we (ix3 (0 : Fin 4) q j)
  exact (SharedFactor.collect (fun k : Fin 128 => x (ix2 r k)) (fun (j : Fin 256) (k : Fin 128) => wp (ix2 j k))
    (fun (j : Fin 256) (k : Fin 128) => wu (ix2 j k)) (fun j : Fin 256 => we (ix3 (0 : Fin 4) q j))
    (fun k => hx _) (fun j k => hp _) (fun j k => hu _) (fun j => he _)).symm

end Cert.StaticRouting

end
-- ==== Proof.FiniteEntries.lean ====
/-
  The precondition says that every entry of every input is a real number.

  The precondition is the conjunction of four tests, one per input array: "every entry's absolute value is below
  +∞".  An extended real whose absolute value `max x (−x)` is below +∞ is neither +∞ (its absolute value is +∞)
  nor −∞ (likewise), so it is a real number.
-/
import proofs.«136582_j19825569038989_1_alg».proof.Pre_finite_inputs
import proofs.«136582_j19825569038989_1_alg».proof.Proof.Gen.Pre_finite_inputs
import proofs.«136582_j19825569038989_1_alg».proof.Proof.LibDenseEdges
import Idealize.ShloMosaic.Lib.ReduceAll
import Idealize.ShloMosaic.Lib.ValueIdx
import Idealize.ShloMosaic.PureOps.Ideal.Laws

noncomputable section

namespace Cert.Pre_finite_inputs.Finite

open Cert.Pre_finite_inputs Cert.Pre_finite_inputs.Facts Idealize.ShloMosaic Cert.DenseEdges

/-- The scalar shape has one index. -/
instance : Subsingleton S_.Idx := ⟨fun a b => funext fun d => d.elim0⟩

/-- The float word the tests compare against denotes +∞. -/
theorem ofBits_inf : Ideal.ofBits .f32 0x7F800000#32 = (⊤ : EReal) := by simp [Ideal.ofBits, Ideal.ieee]

/-- An extended real whose absolute value is below +∞ is a real number. -/
theorem isReal_of_abs_lt_top (x : EReal) (h : Ideal.cmp .olt (max x (-x)) ⊤ = 1#1) : IsReal x := by
  induction x using EReal.rec with
  | bot => simp [Ideal.cmp] at h
  | coe r => exact ⟨r, rfl⟩
  | top => simp [Ideal.cmp] at h

/-- One entry's test, as the precondition spells it. -/
theorem entry_real {s : Shape} (x : FVec Ideal s .f32) (hb : S_.BroadcastsInDim s (![] : Fin 0 → Fin s.rank)) (i : s.Idx)
    (h : cmpf .olt (Host.absf x) (broadcastInDim s ![] hb (constant (F := Ideal) S_ .f32 0x7F800000#32)) i = 1#1) :
    IsReal (x i) := by
  have h' : Ideal.cmp .olt (max (x i) (-(x i))) (Ideal.ofBits .f32 0x7F800000#32) = 1#1 := h
  rw [ofBits_inf] at h'
  exact isReal_of_abs_lt_top _ h'

/-- If the precondition evaluates to "true", every entry of each of the four inputs is a real number. -/
theorem entries_real (a0 : FVec Ideal S524288x128 .f32) (a1 a2 : FVec Ideal S256x128 .f32) (a3 : FVec Ideal S4x128x256 .f32)
    (h : fn (F := Ideal) a0 a1 a2 a3 = fun _ => 1#1) :
    (∀ i, IsReal (a0 i)) ∧ (∀ i, IsReal (a1 i)) ∧ (∀ i, IsReal (a2 i)) ∧ (∀ i, IsReal (a3 i)) := by
  have h0 : fn (F := Ideal) a0 a1 a2 a3 ValueIdx.ix0 = 1#1 := congrFun h ValueIdx.ix0
  dsimp only [fn, fn_part1, andi] at h0
  rw [IntOp.andi_eq_one, IntOp.andi_eq_one, IntOp.andi_eq_one] at h0
  obtain ⟨⟨⟨r0, r1⟩, r2⟩, r3⟩ := h0
  exact ⟨fun i => entry_real a0 _ i (Host.reduce_andi_all _ _ _ _ _ r0 i),
    fun i => entry_real a1 _ i (Host.reduce_andi_all _ _ _ _ _ r1 i),
    fun i => entry_real a2 _ i (Host.reduce_andi_all _ _ _ _ _ r2 i),
    fun i => entry_real a3 _ i (Host.reduce_andi_all _ _ _ _ _ r3 i)⟩

end Cert.Pre_finite_inputs.Finite

end
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.DeviceProduct.lean ====
/-
  What the kernel body computes at one grid point.

  The body loads a block of 16384 token rows and the whole `[128, 128]` weight matrix, changes both to a shorter
  float format (the identity on extended reals), and multiplies them into a zero accumulator: entry `(p, q)` of
  what it stores is `∑ k, rows[p, k] · weights[k, q]`.
-/
import proofs.«136582_j19825569038989_1_alg».proof.Proof.Gen.KernelIdeal.Skeleton
import proofs.«136582_j19825569038989_1_alg».proof.Proof.LibRowLayers
import Idealize.ShloMosaic.Lib.Pipeline.Value
import Idealize.ShloMosaic.Lib.ValueIdx

noncomputable section

open scoped BigOperators

namespace Cert.KernelIdeal.Product

open Cert.KernelIdeal Cert.KernelIdeal.Gen Idealize.ShloMosaic Idealize.ShloMosaic.ValueIdx Cert.RowLayers

/-- The body's product contracts the columns of the row block against the rows of the weight matrix. -/
theorem body_dims : RowsTimesCols dot_S16384x128_S128x128_S16384x128_1_0_0_1_n_n where
  rank := rfl
  size := rfl
  lhs0 := fun j q => by
    unfold DotDims.lhsIdx
    rw [dif_neg (show ¬(0 : Fin S16384x128.rank) ∈ dot_S16384x128_S128x128_S16384x128_1_0_0_1_n_n.lhsBatch by decide),
      dif_pos (show (0 : Fin S16384x128.rank) ∈ dot_S16384x128_S128x128_S16384x128_1_0_0_1_n_n.lhsNonContracting by decide)]
    rfl
  lhs1 := fun j q => dot_S16384x128_S128x128_S16384x128_1_0_0_1_n_n.lhsIdx_val_of_single rfl j q
  rhs0 := fun j q => dot_S16384x128_S128x128_S16384x128_1_0_0_1_n_n.rhsIdx_val_of_single rfl j q
  rhs1 := fun j q => by
    unfold DotDims.rhsIdx
    rw [dif_neg (show ¬(1 : Fin S128x128.rank) ∈ dot_S16384x128_S128x128_S16384x128_1_0_0_1_n_n.rhsBatch by decide),
      dif_pos (show (1 : Fin S128x128.rank) ∈ dot_S16384x128_S128x128_S16384x128_1_0_0_1_n_n.rhsNonContracting by decide)]
    rfl

/-- The stored block at `(p, q)`: row `p` of the loaded rows against column `q` of the loaded weights. -/
theorem payload_entry (x0 : Vec Ideal S16384x128 .f32) (x1 : Vec Ideal S128x128 .f32) (p : Fin 16384) (q : Fin 128) :
    k0_pay1 (F := Ideal) x0 x1 (ix2 p q) = ∑ k : Fin 128, x0 (ix2 p k) * x1 (ix2 k q) := by
  refine (congrFun (rowOf_matmul_zero body_dims none (truncf .bf16 x0 bitsLt_bf16_f32 : FVec Ideal S16384x128 .bf16)
    (truncf .bf16 (shapeCast S128x128 x1 shapeCasts_S128x128_S128x128) bitsLt_bf16_f32 : FVec Ideal S128x128 .bf16) p) q).trans ?_
  refine Finset.sum_congr rfl fun k _ => ?_
  show x0 (ix2 p k) * shapeCast S128x128 x1 shapeCasts_S128x128_S128x128 (ix2 k q) = _
  rw [shapeCast_self]

end Cert.KernelIdeal.Product

end
-- ==== Proof.MixedWeights.lean ====
/-
  The weights the kernel's region is launched with are the collected weights.

  Before the region the host adds the two projection matrices, transposes the sum, takes the first expert's slab
  out of the experts' array, drops its unit axis, transposes it, and multiplies: entry `(k, q)` of the product is
      ∑ j, (wp[j, k] + wu[j, k]) · we[0, q, j],
  the entry `mixed[k, q]` of the collapsed form.
-/
import proofs.«136582_j19825569038989_1_alg».proof.Proof.Gen.KernelIdeal.Frame
import proofs.«136582_j19825569038989_1_alg».proof.Proof.LibRowLayers
import proofs.«136582_j19825569038989_1_alg».proof.Proof.StaticRouting
import Idealize.ShloMosaic.Lib.Pipeline.Value
import Idealize.ShloMosaic.Lib.StableHlo.Run
import Idealize.ShloMosaic.Lib.ValueIdx

noncomputable section

open scoped BigOperators

namespace Cert.KernelIdeal.Weights

open Cert.KernelIdeal Cert.KernelIdeal.Gen Idealize.ShloMosaic Idealize.ShloMosaic.TcCoe Idealize.SL.Sem
open Idealize.ShloMosaic.StableHlo Idealize.ShloMosaic.ValueIdx
open Cert.RowLayers Cert.StaticRouting

/-- The host's product contracts the columns of its left factor against the rows of its right factor. -/
theorem host_dims : RowsTimesCols dot_S128x256_S256x128_S128x128_1_0_0_1_n_n where
  rank := rfl
  size := rfl
  lhs0 := fun j q => by
    unfold DotDims.lhsIdx
    rw [dif_neg (show ¬(0 : Fin S128x256.rank) ∈ dot_S128x256_S256x128_S128x128_1_0_0_1_n_n.lhsBatch by decide),
      dif_pos (show (0 : Fin S128x256.rank) ∈ dot_S128x256_S256x128_S128x128_1_0_0_1_n_n.lhsNonContracting by decide)]
    rfl
  lhs1 := fun j q => dot_S128x256_S256x128_S128x128_1_0_0_1_n_n.lhsIdx_val_of_single rfl j q
  rhs0 := fun j q => dot_S128x256_S256x128_S128x128_1_0_0_1_n_n.rhsIdx_val_of_single rfl j q
  rhs1 := fun j q => by
    unfold DotDims.rhsIdx
    rw [dif_neg (show ¬(1 : Fin S256x128.rank) ∈ dot_S128x256_S256x128_S128x128_1_0_0_1_n_n.rhsBatch by decide),
      dif_pos (show (1 : Fin S256x128.rank) ∈ dot_S128x256_S256x128_S128x128_1_0_0_1_n_n.rhsNonContracting by decide)]
    rfl

/-- The host operations before the region, composed: the product of the transposed sum of the two projection
    matrices with the transposed first slab of the experts' weights. -/
def hostMixed (w1 w2 : FVec Ideal S256x128 .f32) (w3 : FVec Ideal S4x128x256 .f32) : FVec Ideal S128x128 .f32 :=
  Host.dotGeneral (F := Ideal) dot_S128x256_S256x128_S128x128_1_0_0_1_n_n none
    (transpose S128x256 [1, 0] (addf w1 w2) transposes_S256x128_S128x256_1_0)
    (transpose S256x128 [1, 0]
      (shapeCast S128x256 (extractStridedSlice S1x128x256 ![0, 0, 0] w3 slices_S4x128x256_S1x128x256_0_0_0) shapeCasts_S1x128x256_S128x256)
      transposes_S128x256_S256x128_1_0)

/-- Entry by entry, that product is the collected weights. -/
theorem hostMixed_eq (w1 w2 : FVec Ideal S256x128 .f32) (w3 : FVec Ideal S4x128x256 .f32) :
    hostMixed w1 w2 w3 = mixed w1 w2 w3 := by
  funext i
  obtain ⟨k, q, rfl⟩ : ∃ (k q : Fin 128), i = ix2 k q := ⟨i 0, i 1, eq_ix2 i⟩
  show rowOf (hostMixed w1 w2 w3) k q = mixedAt w1 w2 w3 k q
  unfold hostMixed
  rw [rowOf_dotGeneral host_dims]
  unfold mixedAt
  have hq : q.val < 128 := q.isLt
  refine Finset.sum_congr rfl fun j _ => ?_
  have hj : j.val < 256 := j.isLt
  congr 1
  · exact transpose_apply [1, 0] (addf w1 w2) transposes_S256x128_S128x256_1_0 (ix2 k j) (ix2 j k) (fun b => match b with
      | ⟨0, _⟩ => rfl
      | ⟨1, _⟩ => rfl)
  · refine (transpose_apply [1, 0] _ transposes_S128x256_S256x128_1_0 (ix2 j q) (ix2 q j) (fun b => match b with
      | ⟨0, _⟩ => rfl
      | ⟨1, _⟩ => rfl)).trans ?_
    refine (shapeCast_apply _ shapeCasts_S1x128x256_S128x256 (ix2 q j) (ix3 (0 : Fin 1) q j) (by
      rw [Shape.rowMajor_val_three, Shape.rowMajor_val_two]
      show (0 * 128 + q.val) * 256 + j.val = q.val * 256 + j.val
      omega)).trans ?_
    exact extractStridedSlice_apply ![0, 0, 0] w3 slices_S4x128x256_S1x128x256_0_0_0 (ix3 (0 : Fin 1) q j) (ix3 (0 : Fin 4) q j)
      (fun a => match a with
        | ⟨0, _⟩ => by show (0 : ℕ) = 0 + 0; rfl
        | ⟨1, _⟩ => by show q.val = 0 + q.val; omega
        | ⟨2, _⟩ => by show j.val = 0 + j.val; omega)

variable (m : (ℓ : Loc nD τ sig) → Buf (Elt Ideal) ℓ)

/-- The second window's array, as the region finds it, is the collected weights of the three weight arguments as launched. -/
theorem V_weights (c : Dev nD) :
    (V m c main_v5 : S128x128.Idx → EReal)
      = mixed (m ((c : Thread nD τ).loc main_arg1)) (m ((c : Thread nD τ).loc main_arg2)) (m ((c : Thread nD τ).loc main_arg3)) := by
  rw [← hostMixed_eq]
  dsimp only [Gen.V, Gen.hostOps0]
  after_results
  rfl

end Cert.KernelIdeal.Weights

end
-- ==== Proof.TiledRows.lean ====
/-
  From the blocks the grid points write to the whole result array.

  The grid has 32 points; point `t` reads rows `16384·t … 16384·t + 16383` of the tokens and the whole weight
  matrix, and writes the same rows of the result.  What it writes is, entry by entry, the tokens' row against the
  weights' column: the restriction to those rows of ONE array, `collapsed tokens weights`.  The 32 row blocks
  cover all 524288 rows (row `r` lies in block `r / 16384`), so after the run the result array is that array, with
  the weights the collected weights of the three weight inputs.
-/
import proofs.«136582_j19825569038989_1_alg».proof.Proof.Gen.KernelIdeal.Value
import proofs.«136582_j19825569038989_1_alg».proof.Proof.DeviceProduct
import proofs.«136582_j19825569038989_1_alg».proof.Proof.MixedWeights
import proofs.«136582_j19825569038989_1_alg».proof.Proof.StaticRouting
import Idealize.ShloMosaic.Lib.Pipeline.Value
import Idealize.ShloMosaic.Lib.ValueIdx

noncomputable section

open scoped BigOperators

namespace Cert.KernelIdeal.Tiled

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open Cert.StaticRouting Cert.KernelIdeal.Product Cert.KernelIdeal.Weights

variable (m : (ℓ : Loc nD τ sig) → Buf (Elt Ideal) ℓ) (ρ : Dev nD → PrngReg)

/-- Every load and store of the body starts at the origin of its buffer. -/
theorem origin : (![0, 0] : Fin 2 → Nat) = fun _ => 0 := funext fun a => by fin_cases a <;> rfl

/-- The block index maps, decided over the 32 grid points: the token window and the result window move down the rows
    together and stay in column block 0; the weight window stays at block (0, 0); the row block's number is at most 31. -/
theorem block_maps : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 31 :=
  (by decide +kernel : ∀ t : Fin grid0.N, _)

/-- Every one of the 32 row blocks is some grid point's. -/
theorem block_onto : ∀ q0 : Fin 32, ∃ t : Fin cfg0.N, win0_2.index t = ![q0.val, 0] :=
  (by decide +kernel : ∀ q0 : Fin 32, ∃ t : Fin grid0.N, win0_2.index t = ![q0.val, 0])

/-- The row of the whole array that row `p` of point `t`'s block is: `16384 · (block number) + p`. -/
def rowAt (t : Fin cfg0.N) (p : Fin 16384) : Fin 524288 :=
  ⟨win0_2.index t (0 : Fin 2) * 16384 + p.val, by have h := (block_maps t).2.2.2.2.2; have hp := p.isLt; omega⟩

/-- Entry `(p, q)` of point `t`'s result block sits at `(rowAt t p, q)` of the result array. -/
theorem emb_result (t : Fin cfg0.N) (p : Fin 16384) (q : Fin 128) :
    ((cfg0.win 2).blk t).view.emb (ix2 p q) = ix2 (rowAt t p) q := by
  obtain ⟨e0, e1, e2, e3, e4, e5⟩ := block_maps t
  refine funext fun a => Fin.ext ?_
  match a with
  | ⟨0, _⟩ =>
    show win0_2.index t (0 : Fin 2) * 16384 + 1 * p.val = win0_2.index t (0 : Fin 2) * 16384 + p.val
    omega
  | ⟨1, _⟩ =>
    show win0_2.index t (1 : Fin 2) * 128 + 1 * q.val = q.val
    omega

/-- Entry `(p, k)` of point `t`'s token block sits at `(rowAt t p, k)` of the tokens: the same rows as the result block. -/
theorem emb_tokens (t : Fin cfg0.N) (p : Fin 16384) (k : Fin 128) :
    ((cfg0.win 0).blk t).view.emb (ix2 p k) = ix2 (rowAt t p) k := by
  obtain ⟨e0, e1, e2, e3, e4, e5⟩ := block_maps t
  refine funext fun a => Fin.ext ?_
  match a with
  | ⟨0, _⟩ =>
    show win0_0.index t (0 : Fin 2) * 16384 + 1 * p.val = win0_2.index t (0 : Fin 2) * 16384 + p.val
    omega
  | ⟨1, _⟩ =>
    show win0_0.index t (1 : Fin 2) * 128 + 1 * k.val = k.val
    omega

/-- The weight block is the whole weight matrix at every point. -/
theorem emb_weights (t : Fin cfg0.N) (k q : Fin 128) :
    ((cfg0.win 1).blk t).view.emb (ix2 k q) = ix2 k q := by
  obtain ⟨e0, e1, e2, e3, e4, e5⟩ := block_maps t
  refine funext fun a => Fin.ext ?_
  match a with
  | ⟨0, _⟩ =>
    show win0_1.index t (0 : Fin 2) * 128 + 1 * k.val = k.val
    omega
  | ⟨1, _⟩ =>
    show win0_1.index t (1 : Fin 2) * 128 + 1 * q.val = q.val
    omega

/-- The token block at a point is the tokens, as the region finds them, read through the block's place in the array. -/
theorem read_tokens (c : Dev nD) (t : Fin cfg0.N) (y : S16384x128.Idx) :
    iblk m c 0 t y = V m c main_arg0 (((cfg0.win 0).blk t).view.emb y) := rfl

/-- The weight block at a point is the weights, as the region finds them, read through the block's place in the array. -/
theorem read_weights (c : Dev nD) (t : Fin cfg0.N) (y : S128x128.Idx) :
    iblk m c 1 t y = V m c main_v5 (((cfg0.win 1).blk t).view.emb y) := rfl

/-- What point `t` writes back is the body's one stored value: the product of its two loaded blocks. -/
theorem flushed_payload (c : Dev nD) (t : Fin cfg0.N) (y : S16384x128.Idx) :
    (dats m 0 c).flushed 2 t y = k0_pay1 (F := Ideal) (iblk m c 0 t) (iblk m c 1 t) y := by
  rw [flushed2]
  unfold out0_2
  rw [View.canon_unit_zero origin]
  simp only [View.ld_unit_zero (S := S16384x128) origin, View.ld_unit_zero (S := S128x128) origin]
  rfl

/-- The collapsed form at an entry given by coordinates. -/
theorem collapsed_at (X : Tokens.Idx → EReal) (W : Mixed.Idx → EReal) (r : Fin 524288) (q : Fin 128) :
    collapsed X W (ix2 r q) = ∑ k : Fin 128, X (ix2 r k) * W (ix2 k q) := rfl

/-- What point `t` writes back is its row block of `collapsed tokens weights`, tokens and weights as the region finds them:
    entry `(p, q)` of the block is row `rowAt t p` of the tokens against column `q` of the weights. -/
theorem flushed_eq (c : Dev nD) (t : Fin cfg0.N) :
    (dats m 0 c).flushed 2 t
      = ((cfg0.win 2).blk t).view.read (Elt Ideal) (collapsed (V m c main_arg0) (V m c main_v5)) := by
  funext y
  obtain ⟨p, q, rfl⟩ : ∃ (p : Fin 16384) (q : Fin 128), y = ix2 p q := ⟨y 0, y 1, eq_ix2 y⟩
  rw [flushed_payload]
  refine (payload_entry (iblk m c 0 t) (iblk m c 1 t) p q).trans ?_
  show _ = collapsed (V m c main_arg0) (V m c main_v5) (((cfg0.win 2).blk t).view.emb (ix2 p q))
  rw [emb_result, collapsed_at]
  refine Finset.sum_congr rfl fun k _ => ?_
  rw [read_tokens, read_weights, emb_tokens, emb_weights]

/-- An index of the result array is in point `t`'s block iff each coordinate is in the block's range on its axis. -/
theorem mem_block (t : Fin cfg0.N) (i : S524288x128.Idx) :
    i ∈ ((cfg0.win 2).blk t).view.set ↔ ∀ a : Fin 2, win0_2.index t a * S16384x128.size a ≤ (i a).val
      ∧ (i a).val < win0_2.index t a * S16384x128.size a + S16384x128.size a := by
  show i ∈ ((View.whole main_v6).slice (win0_2.rect t)).set ↔ _
  rw [View.set_slice_whole, Rect.mem_set_unit]
  exact Iff.rfl

/-- Every index of the result array is in some writing point's block: row `r` is in row block `r / 16384`. -/
theorem covered (i : S524288x128.Idx) :
    ∃ t : Fin cfg0.N, (cfg0.win 2).flush t = true ∧ i ∈ ((cfg0.win 2).blk t).view.set := by
  have hi0 : (i 0).val < 524288 := (i 0).isLt
  have hi1 : (i 1).val < 128 := (i 1).isLt
  obtain ⟨t, ht⟩ := block_onto ⟨(i 0).val / 16384, by omega⟩
  have q0 : win0_2.index t (0 : Fin 2) = (i 0).val / 16384 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 16384 ≤ (i 0).val ∧ (i 0).val < win0_2.index t (0 : Fin 2) * 16384 + 16384
    omega
  | ⟨1, _⟩ =>
    show win0_2.index t (1 : Fin 2) * 128 ≤ (i 1).val ∧ (i 1).val < win0_2.index t (1 : Fin 2) * 128 + 128
    omega

/-- The result array after the run: the collapsed form of the four inputs as launched. -/
theorem final (c : Dev nD) :
    (dats m 0 c).arrAt 2 cfg0.N
      = collapsed (m ((c : Thread nD τ).loc main_arg0))
          (mixed (m ((c : Thread nD τ).loc main_arg1)) (m ((c : Thread nD τ).loc main_arg2)) (m ((c : Thread nD τ).loc main_arg3))) :=
  ((dats m 0 c).arrAt_eq_of_cover 2 (collapsed (V m c main_arg0) (V m c main_v5)) (fun t _ => flushed_eq m c t) covered).trans
    (congrArg₂ collapsed (V_main_arg0 m c) (V_weights m c))

/-- Every weakly fair execution of the kernel program ends with the result array at the collapsed form of the inputs
    and the inputs unchanged. -/
theorem run : θ_run defs (onTc (τ := τ) (main (F := Ideal))) ⟨m, fun _ => 0, ρ⟩ fun r => ∀ c : Dev nD,
      r.2.mem ((c : Thread nD τ).loc main_v6)
        = collapsed (m ((c : Thread nD τ).loc main_arg0))
            (mixed (m ((c : Thread nD τ).loc main_arg1)) (m ((c : Thread nD τ).loc main_arg2)) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Tiled

end
-- ==== Proof.RoutedReference.lean ====
/-
  The reference program computes the routed form.

  Its last operation concatenates, along the rows, the first group's product (all 524288 rows) with the three
  other groups' products, which have no rows: so every row of the result is a row of the first piece.  That piece
  is the hidden layer times the first expert's weights; the hidden layer is the sum of the two projections of the
  tokens; the expert's weights reach the product through a slice of the first slab, the removal of its unit axis
  and a transposition, so entry `(j, q)` of the right factor is `we[0, q, j]`.
-/
import proofs.«136582_j19825569038989_1_alg».proof.Proof.Gen.ReferenceIdeal.Read
import proofs.«136582_j19825569038989_1_alg».proof.Proof.StaticRouting
import Idealize.ShloMosaic.Lib.Pipeline.Value
import Idealize.ShloMosaic.Lib.ValueIdx

noncomputable section

open scoped BigOperators

namespace Cert.ReferenceIdeal.Routed

open Cert.ReferenceIdeal Cert.ReferenceIdeal.Gen Cert.ReferenceIdeal.Read Idealize.ShloMosaic Idealize.ShloMosaic.ValueIdx
open Cert.StaticRouting

variable (x0 : (⟨S524288x128, .f32⟩ : BufTy).Contents (Elt Ideal)) (x1 x2 : (⟨S256x128, .f32⟩ : BufTy).Contents (Elt Ideal))
  (x3 : (⟨S4x128x256, .f32⟩ : BufTy).Contents (Elt Ideal))

/-- The concatenation's three trailing pieces have no rows: at every index the result is its first piece. -/
theorem last_stage_apply (i : S524288x128.Idx) :
    val_main_v24 (F := Ideal) x0 x1 x2 x3 i = val_main_v8 (F := Ideal) x0 x1 x2 x3 i := by
  unfold val_main_v24
  exact concatenate_apply_piece (t := S524288x128) 0
    [⟨S524288x128, val_main_v8 (F := Ideal) x0 x1 x2 x3⟩, ⟨S0x128, val_main_v13 (F := Ideal) x0 x1 x2 x3⟩,
      ⟨S0x128, val_main_v18 (F := Ideal) x0 x1 x2 x3⟩, ⟨S0x128, val_main_v23 (F := Ideal) x0 x1 x2 x3⟩]
    concatenates_S524288x128_S0x128_S0x128_S0x128_S524288x128_d0 i 0 (by simp)
    S524288x128 (val_main_v8 (F := Ideal) x0 x1 x2 x3) rfl rfl 0 rfl i (fun b _ => rfl) (Nat.zero_add _)

/-- The right factor of the last product: entry `(j, q)` is the first expert's weight `we[0, q, j]`. -/
theorem expert_entry (j : Fin 256) (q : Fin 128) :
    val_main_v7 (F := Ideal) x3 (ix2 j q) = x3 (ix3 (0 : Fin 4) q j) := by
  rw [val_main_v7_apply, val_main_v6_apply, val_main_v5_apply]
  have hq : q.val < 128 := q.isLt
  have hj : j.val < 256 := j.isLt
  refine congrArg x3 (funext fun a => Fin.ext ?_)
  match a with
  | ⟨0, _⟩ => rfl
  | ⟨1, _⟩ => show (q.val * 256 + j.val) / 256 % 128 = q.val; omega
  | ⟨2, _⟩ => show (q.val * 256 + j.val) % 256 = j.val; omega

/-- The hidden layer: entry `(r, j)` is the sum of the two projections of token row `r`. -/
theorem hidden_entry (r : Fin 524288) (j : Fin 256) :
    val_main_v4 (F := Ideal) x0 x1 x2 (ix2 r j) = hiddenAt x0 x1 x2 r j := by
  rw [val_main_v4_apply, val_main_v1_apply, val_main_v3_apply]
  show (∑ k : Fin 128, _) + (∑ k : Fin 128, _) = _
  unfold hiddenAt
  congr 1
  · refine Finset.sum_congr rfl fun k _ => ?_
    rw [val_main_v0_apply]
    congr 1 <;> exact congrArg _ (funext fun a => Fin.ext (by
      match a with
      | ⟨0, _⟩ => rfl
      | ⟨1, _⟩ => rfl))
  · refine Finset.sum_congr rfl fun k _ => ?_
    rw [val_main_v2_apply]
    congr 1 <;> exact congrArg _ (funext fun a => Fin.ext (by
      match a with
      | ⟨0, _⟩ => rfl
      | ⟨1, _⟩ => rfl))

/-- The first group's product: entry `(r, q)` is the hidden row `r` against the first expert's row `q`. -/
theorem first_group_entry (r : Fin 524288) (q : Fin 128) :
    val_main_v8 (F := Ideal) x0 x1 x2 x3 (ix2 r q) = routedAt x0 x1 x2 x3 r q := by
  rw [val_main_v8_apply]
  unfold routedAt
  refine Finset.sum_congr rfl fun j _ => ?_
  have hl : lidx_main_v8 (ix2 r q) j = ix2 r j := funext fun a => Fin.ext (by
    match a with
    | ⟨0, _⟩ => rfl
    | ⟨1, _⟩ => rfl)
  have hr : ridx_main_v8 (ix2 r q) j = ix2 j q := funext fun a => Fin.ext (by
    match a with
    | ⟨0, _⟩ => rfl
    | ⟨1, _⟩ => rfl)
  rw [hl, hr, hidden_entry, expert_entry]

/-- The reference's result is the routed form of its four arguments. -/
theorem result_eq_routed : val_main_v24 (F := Ideal) x0 x1 x2 x3 = routed x0 x1 x2 x3 := by
  funext i
  obtain ⟨r, q, rfl⟩ : ∃ (r : Fin 524288) (q : Fin 128), i = ix2 r q := ⟨i 0, i 1, eq_ix2 i⟩
  rw [last_stage_apply, first_group_entry]
  rfl

end Cert.ReferenceIdeal.Routed

end
-- ==== Proof.lean ====
/-
  A grouped projection with static routing, computed with collected weights: the kernel program against its reference.

  Both programs take tokens x [524288, 128], two projection matrices wp, wu [256, 128] and the experts' weights
  we [4, 128, 256].  The reference projects every token row twice, adds the images, and multiplies the sum by the
  first expert's weights (every token is routed to the first expert; the other three groups are empty):
      routed[r, q] = ∑ j, ((∑ k, x[r, k] · wp[j, k]) + (∑ k, x[r, k] · wu[j, k])) · we[0, q, j].
  The kernel program first collects the weights on the host,
      mixed[k, q] = ∑ j, (wp[j, k] + wu[j, k]) · we[0, q, j],
  and its grid then multiplies the tokens by them, 16384 rows at a time:
      collapsed[r, q] = ∑ k, x[r, k] · mixed[k, q].
  For inputs that are real numbers the two arrays are equal, by distributivity and an exchange of the two finite sums
  (Proof/LibSharedFactor.lean, Proof/StaticRouting.lean); on the extended reals distributivity fails at the
  infinities, which is where the precondition "every input entry is finite" is used (Proof/FiniteEntries.lean).

  The kernel's side: Proof/DeviceProduct.lean reads one grid point's stored block entry by entry,
  Proof/MixedWeights.lean reads the host operations before the region as the collected weights, and
  Proof/TiledRows.lean assembles the 32 row blocks into the whole result array.  The reference's side:
  Proof/RoutedReference.lean reads its operations as the routed form.  The three frame claims are the generated frame
  runs; no operation was rewritten between the kernel and its idealization, so that claim is trivially true.
-/
import proofs.«136582_j19825569038989_1_alg».proof.Defs
import proofs.«136582_j19825569038989_1_alg».proof.Proof.Gen.Kernel
import proofs.«136582_j19825569038989_1_alg».proof.Proof.Gen.Kernel.Skeleton
import proofs.«136582_j19825569038989_1_alg».proof.Proof.Gen.Kernel.Launch
import proofs.«136582_j19825569038989_1_alg».proof.Proof.Gen.Kernel.Points
import proofs.«136582_j19825569038989_1_alg».proof.Proof.Gen.Kernel.Frame
import proofs.«136582_j19825569038989_1_alg».proof.Proof.Gen.KernelIdeal
import proofs.«136582_j19825569038989_1_alg».proof.Proof.Gen.KernelIdeal.Skeleton
import proofs.«136582_j19825569038989_1_alg».proof.Proof.Gen.KernelIdeal.Launch
import proofs.«136582_j19825569038989_1_alg».proof.Proof.Gen.KernelIdeal.Points
import proofs.«136582_j19825569038989_1_alg».proof.Proof.Gen.KernelIdeal.Frame
import proofs.«136582_j19825569038989_1_alg».proof.Proof.Gen.ReferenceIdeal
import proofs.«136582_j19825569038989_1_alg».proof.Proof.Gen.KernelIdeal.Value
import proofs.«136582_j19825569038989_1_alg».proof.Proof.Gen.ReferenceIdeal.Run
import proofs.«136582_j19825569038989_1_alg».proof.Proof.Gen.ReferenceIdeal.Read
import proofs.«136582_j19825569038989_1_alg».proof.Proof.Gen.Pre_finite_inputs
import proofs.«136582_j19825569038989_1_alg».proof.Proof.StaticRouting
import proofs.«136582_j19825569038989_1_alg».proof.Proof.FiniteEntries
import proofs.«136582_j19825569038989_1_alg».proof.Proof.TiledRows
import proofs.«136582_j19825569038989_1_alg».proof.Proof.RoutedReference
import Idealize.ShloMosaic.Adequacy
import Idealize.ShloMosaic.Init

noncomputable section

namespace Cert.Proof

open Idealize.ShloMosaic Idealize.SL.Sem Cert.StaticRouting

/-- The word-level kernel program runs, and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four inputs, all of them finite, the kernel program ends at the collapsed form and
    the reference at the routed form of the same inputs: one array. -/
theorem algebraic : Cert.algebraic_KernelIdeal_ReferenceIdeal := by
  intro m ρ m' ρ' hpre hagree
  refine ⟨_, Cert.KernelIdeal.Tiled.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.Routed.result_eq_routed,
    (hagree c).1, (hagree c).2.1, (hagree c).2.2.1, (hagree c).2.2.2]
  obtain ⟨h0, h1, h2, h3⟩ := Cert.Pre_finite_inputs.Finite.entries_real _ _ _ _ (hpre c)
  exact (collapsed_mixed_eq_routed _ _ _ _ h0 h1 h2 h3).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
